-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S4x2048x4096 .f32) (main_arg1 : IVec S4096x4096 32) (main_arg2 : FVec F S4096x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S4096x32 : Shape := ⟨2, ![4096, 32]⟩
abbrev S8192x4096 : Shape := ⟨2, ![8192, 4096]⟩
abbrev S2048x1024 : Shape := ⟨2, ![2048, 1024]⟩
abbrev S1024x1024 : Shape := ⟨2, ![1024, 1024]⟩
abbrev S1024x32 : Shape := ⟨2, ![1024, 32]⟩
abbrev S1024x8x128 : Shape := ⟨3, ![1024, 8, 128]⟩
abbrev S1024x8 : Shape := ⟨2, ![1024, 8]⟩
abbrev S1024x8x1 : Shape := ⟨3, ![1024, 8, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S8192x4096, .f32⟩
  | .hbm, ⟨4, _⟩ => ⟨S8192x4096, .f32⟩
  | .hbm, ⟨5, _⟩ => ⟨S4x2048x4096, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .i32⟩
  | .local _ .vmem, ⟨3, _⟩ => ⟨S1024x1024, .i32⟩
  | .local _ .vmem, ⟨4, _⟩ => ⟨S1024x32, .f32⟩
  | .local _ .vmem, ⟨5, _⟩ => ⟨S1024x32, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c8_i32 : BitVec 32 := 8#32
  let v9 : BitVec 32 := Scalar.muli arg2 c8_i32
  v9
def k0_off1 (i : grid0.Coords) : Fin 2 → Nat :=
  let c0_4 : Index := 0#32
  let arg2 : BitVec 32 := BitVec.ofNat 32 (i 2).val
  let c8_i32 : BitVec 32 := 8#32
  let v9 : BitVec 32 := Scalar.muli arg2 c8_i32
  let v10 : BitVec 32 := v9
  let v11 : Index := Scalar.indexCast v10
  ![0, v11.toNat]
def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_9 : BitVec 32 := 0#32
  let v26 : BitVec 1 := Scalar.cmpi .ne v25 c0_i32_9
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x8x128 : S1024x1024.ShapeCasts S1024x8x128
  h_S1024x8 : 0 < S1024x8.numel
  shapeCasts_S1024x8_S1024x8x1 : S1024x8.ShapeCasts S1024x8x1
  broadcasts_S1024x8x1_S1024x8x128 : S1024x8x1.Broadcasts S1024x8x128
  shapeCasts_S1024x8x128_S1024x1024 : S1024x8x128.ShapeCasts S1024x1024
  shapeCasts_S8192x4096_S4x2048x4096 : S8192x4096.ShapeCasts S4x2048x4096
  dot_S2048x1024_S1024x1024_S2048x1024_1_1_0_0_n_n_wf : DotDims.WF S2048x1024 S1024x1024 S2048x1024 [1] [1] [0] [0] [] []
  hrank0 : 0 < grid0.rank
  k0_mult1_dvd : ∀ i : grid0.Coords, 8 ∣ (k0_mult1 i).toNat
  k0_off1_inb : ∀ i : grid0.Coords, ∀ a, (k0_off1 i) a + S1024x8.size a ≤ S1024x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .f32 = 32 ∨ (Rect.block (s := S8192x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .i32 = 32 ∨ (Rect.block (s := S4096x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S4096x32.size a
  hwx0_2 : ∀ i : grid0.Coords, EltTy.bits .f32 = 32 ∨ (Rect.block (s := S4096x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x32 : Shape := ⟨2, ![4096, 32]⟩
abbrev S4096x32x128 : Shape := ⟨3, ![4096, 32, 128]⟩
abbrev S4096x32x1 : Shape := ⟨3, ![4096, 32, 1]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S4096x4096, .f32⟩
  | .hbm, ⟨4, _⟩ => ⟨S4096x32x128, .f32⟩
  | .hbm, ⟨5, _⟩ => ⟨S4096x32x1, .f32⟩
  | .hbm, ⟨6, _⟩ => ⟨S4096x32x128, .f32⟩
  | .hbm, ⟨7, _⟩ => ⟨S4096x32x128, .f32⟩
  | .hbm, ⟨8, _⟩ => ⟨S4096x4096, .f32⟩
  | .hbm, ⟨9, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The function both programs compute, stated once over the argument arrays, and the one law that
  joins their two arrangements of it.

  With 4·2048 rows of activations x[b, t, ·] over 4096 input features, a 4096×4096 integer weight
  matrix w[o, ·] and one scale per output feature and group of 128 consecutive input features,
  the result at (b, t, o) is

      ∑ i < 4096,  x[b, t, i] · ( float(w[o, i]) · scale[o, i / 128] )

  on the extended reals.  One program takes this sum whole; the other takes it as four consecutive
  runs of 1024 features added up one after the other, starting from zero.  The two agree because
  addition of extended reals is associative with neutral element zero: a sum over the first 4096
  naturals is the sum of its four quarters.

  Rows and features are indexed by natural numbers reduced into range, so that the equations
  between index expressions in the other modules are equations of natural numbers.
-/
import Idealize.ShloMosaic.PureOps.Ideal
import Idealize.ShloMosaic.Lib.ValueIdx

noncomputable section

open scoped BigOperators
open Idealize.ShloMosaic Idealize.ShloMosaic.ValueIdx

namespace Cert.DequantLinear

/-- The activations, the integer weights and the scales. -/
abbrev Acts := (⟨3, ![4, 2048, 4096]⟩ : Shape).Idx → EReal
abbrev Weights := (⟨2, ![4096, 4096]⟩ : Shape).Idx → BitVec 32
abbrev Scales := (⟨2, ![4096, 32]⟩ : Shape).Idx → EReal

variable (x : Acts) (w : Weights) (sc : Scales)

/-- One product of the contraction: row `r` of the 8192 flattened activation rows (row `r` is
    (r / 2048, r % 2048)), output feature `o`, input feature `i`. -/
def prod (r o i : ℕ) : EReal :=
  x (ix3 (⟨r / 2048 % 4, by omega⟩ : Fin 4) (⟨r % 2048, by omega⟩ : Fin 2048) (⟨i % 4096, by omega⟩ : Fin 4096))
    * (FloatOps.sitofp (F := Ideal) .f32 (w (ix2 (⟨o % 4096, by omega⟩ : Fin 4096) (⟨i % 4096, by omega⟩ : Fin 4096)))
        * sc (ix2 (⟨o % 4096, by omega⟩ : Fin 4096) (⟨i % 4096 / 128, by omega⟩ : Fin 32)))

/-- The whole contraction at row `r` and output feature `o`. -/
def whole (r o : ℕ) : EReal := ∑ i : Fin 4096, prod x w sc r o i.val

/-- The share of the `s`-th run of 1024 consecutive input features. -/
def share (r o s : ℕ) : EReal := ∑ k : Fin 1024, prod x w sc r o (1024 * s + k.val)

/-- The contraction is the sum of its four shares. -/
theorem whole_eq_shares (r o : ℕ) : whole x w sc r o = ∑ s ∈ Finset.range 4, share x w sc r o s := by
  have hs : ∀ s : ℕ, share x w sc r o s = ∑ k ∈ Finset.range 1024, prod x w sc r o (1024 * s + k) := fun s =>
    Fin.sum_univ_eq_sum_range (fun k => prod x w sc r o (1024 * s + k)) 1024
  have hw : whole x w sc r o = ∑ i ∈ Finset.range 4096, prod x w sc r o i :=
    Fin.sum_univ_eq_sum_range (fun i => prod x w sc r o i) 4096
  have h4 : ∑ s ∈ Finset.range 4, share x w sc r o s
      = share x w sc r o 0 + share x w sc r o 1 + share x w sc r o 2 + share x w sc r o 3 := by
    rw [Finset.sum_range_succ, Finset.sum_range_succ, Finset.sum_range_succ, Finset.sum_range_one]
  rw [h4, hs, hs, hs, hs, hw, show (4096 : ℕ) = 1024 + 1024 + 1024 + 1024 from rfl,
    Finset.sum_range_add, Finset.sum_range_add, Finset.sum_range_add]
  simp only [Nat.mul_zero, Nat.zero_add, Nat.mul_one]

/-- The result array: the contraction at every (b, t, o). -/
def linear : Acts := fun j => whole x w sc (2048 * (j 0).val + (j 1).val) (j 2).val

end Cert.DequantLinear

end
-- ==== Proof.RefValue.lean ====
/-
  The reference computes the specification.

  Read one operation at a time, the reference's result at (b, t, o) is the sum over the input
  features i of x[b, t, i] times the dequantized weight at (o, i); the dequantized weight is
  obtained by viewing the 4096 columns of the weight matrix as 32 groups of 128, multiplying group
  g by the scale column g, and viewing the result as 4096 columns again.  Position i of a row is
  position i % 128 of group i / 128, so the dequantized weight at (o, i) is
  float(w[o, i]) · scale[o, i / 128]: the product the specification sums.
-/
import proofs.«128871_j21706764714504_1_alg».proof.Proof.Gen.ReferenceIdeal.Read
import proofs.«128871_j21706764714504_1_alg».proof.Proof.Spec

noncomputable section

open Idealize.ShloMosaic Idealize.ShloMosaic.ValueIdx

namespace Cert.ReferenceIdeal.RefValue

open Cert.ReferenceIdeal Cert.ReferenceIdeal.Read Cert.DequantLinear

/-- The reference's result term is the specification, index by index. -/
theorem result_eq (x : (⟨S4x2048x4096, .f32⟩ : BufTy).Contents (Elt Ideal)) (w : (⟨S4096x4096, .i32⟩ : BufTy).Contents (Elt Ideal))
    (sc : (⟨S4096x32, .f32⟩ : BufTy).Contents (Elt Ideal)) :
    val_main_v6 (F := Ideal) x w sc = linear x w sc := by
  funext i
  have hi0 : (i 0).val < 4 := (i 0).isLt
  have hi1 : (i 1).val < 2048 := (i 1).isLt
  have hi2 : (i 2).val < 4096 := (i 2).isLt
  rw [val_main_v6_apply]
  unfold linear whole
  refine Finset.sum_congr rfl fun k _ => ?_
  have hk : k.val < 4096 := k.isLt
  rw [val_main_v5_apply, val_main_v4_apply, val_main_v1_apply, val_main_v0_apply, val_main_v3_apply, val_main_v2_apply]
  unfold prod
  refine congrArg₂ (· * ·) (congrArg x ?_) (congrArg₂ (· * ·) (congrArg (fun z => FloatOps.sitofp (F := Ideal) .f32 (w z)) ?_) (congrArg sc ?_))
  · funext a; apply Fin.ext
    match a with
    | ⟨0, _⟩ => show (i 0).val = (2048 * (i 0).val + (i 1).val) / 2048 % 4; omega
    | ⟨1, _⟩ => show (i 1).val = (2048 * (i 0).val + (i 1).val) % 2048; omega
    | ⟨2, _⟩ => show k.val = k.val % 4096; omega
  · funext a; apply Fin.ext
    match a with
    | ⟨0, _⟩ => show ((((i 2).val * 4096 + k.val) / 4096 * 32 + ((i 2).val * 4096 + k.val) / 128 % 32) * 128 + ((i 2).val * 4096 + k.val) % 128) / 4096 = (i 2).val % 4096; omega
    | ⟨1, _⟩ => show ((((i 2).val * 4096 + k.val) / 4096 * 32 + ((i 2).val * 4096 + k.val) / 128 % 32) * 128 + ((i 2).val * 4096 + k.val) % 128) % 4096 = k.val % 4096; omega
  · funext a; apply Fin.ext
    match a with
    | ⟨0, _⟩ => show ((i 2).val * 4096 + k.val) / 4096 = (i 2).val % 4096; omega
    | ⟨1, _⟩ => show ((i 2).val * 4096 + k.val) / 128 % 32 = k.val % 4096 / 128; omega

end Cert.ReferenceIdeal.RefValue

end
-- ==== Proof.Found.lean ====
/-
  What the kernel body leaves behind, case by case, as a value.

  The body keeps a 2048×1024 partial-product block in a scratch buffer across the four steps of the
  contraction axis.  At the first step it zeroes the scratch and then adds that step's block product
  to it; at the two middle steps it adds the block product to what the step before left; at the
  last step it does the same and copies the scratch into the output block.  Each of these is one
  covering store, so what a buffer holds afterwards is that store's payload: the body's pure term
  `k0_pay2` of the three input blocks (of the scale block only the eight columns the step uses)
  and of the previous scratch contents (the zero block `k0_pay1` at the first step).
-/
import proofs.«128871_j21706764714504_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Found

open Cert.KernelIdeal Cert.KernelIdeal.Gen

variable {F : FTy → Type} [FloatOps F]

theorem zeroOffsets : (![0, 0] : Fin 2 → Nat) = fun _ => 0 := funext fun a => by fin_cases a <;> rfl

/-- The eight scale columns the body reads at grid coordinates `i`: columns `8·i₂ … 8·i₂ + 7` of the
    1024×32 scale block. -/
def scaleCols (i : grid0.Coords) (x2 : Vec F S1024x32 .f32) : Vec F S1024x8 .f32 :=
  View.ld x2 (Rect.unit (s := S1024x32) (k0_off1 i) S1024x8.size (k0_off1_inb i))

/-- First step of the contraction axis: the scratch ends at the block product added to the zero block. -/
theorem scratch_first (c : Dev nD) (i : grid0.Coords) (arg3 : Memref sig .tc .vmem S2048x1024 .f32) (harg3 : arg3.IsWhole) (arg4 : Memref sig .tc .vmem S1024x1024 .i32) (harg4 : arg4.IsWhole) (arg5 : Memref sig .tc .vmem S1024x32 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x1024 .f32) (x1 : Vec F S1024x1024 .i32) (x2 : Vec F S1024x32 .f32) :
    sout0_A_0 c i arg3 harg3 arg4 harg4 arg5 harg5 arg6 harg6 arg7 harg7 hc0 hc1 x0 x1 x2 = k0_pay2 x0 x1 (scaleCols i x2) (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) zeroOffsets, View.readCov_unit_zero (S := S2048x1024) _ zeroOffsets]
  simp only [View.readAt_eq_ld, harg3.read_unread, harg4.read_unread, harg5.read_unread,
    View.ld_unit_zero (S := S2048x1024) zeroOffsets, View.ld_unit_zero (S := S1024x1024) zeroOffsets]
  rfl

/-- A middle step: the scratch ends at the block product added to what it held. -/
theorem scratch_middle (c : Dev nD) (i : grid0.Coords) (arg3 : Memref sig .tc .vmem S2048x1024 .f32) (harg3 : arg3.IsWhole) (arg4 : Memref sig .tc .vmem S1024x1024 .i32) (harg4 : arg4.IsWhole) (arg5 : Memref sig .tc .vmem S1024x32 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x1024 .f32) (x1 : Vec F S1024x1024 .i32) (x2 : Vec F S1024x32 .f32) (xs0 : Vec F S2048x1024 .f32) :
    sout0_B_0 c i arg3 harg3 arg4 harg4 arg5 harg5 arg6 harg6 arg7 harg7 hc0 hc1 x0 x1 x2 xs0 = k0_pay2 x0 x1 (scaleCols i x2) xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero zeroOffsets]
  simp only [View.readAt_eq_ld, harg3.read_unread, harg4.read_unread, harg5.read_unread, harg7.read_unread,
    View.ld_unit_zero (S := S2048x1024) zeroOffsets, View.ld_unit_zero (S := S1024x1024) zeroOffsets]
  rfl

/-- The last step: the scratch ends at the block product added to what it held … -/
theorem scratch_last (c : Dev nD) (i : grid0.Coords) (arg3 : Memref sig .tc .vmem S2048x1024 .f32) (harg3 : arg3.IsWhole) (arg4 : Memref sig .tc .vmem S1024x1024 .i32) (harg4 : arg4.IsWhole) (arg5 : Memref sig .tc .vmem S1024x32 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .f32) (x1 : Vec F S1024x1024 .i32) (x2 : Vec F S1024x32 .f32) (xs0 : Vec F S2048x1024 .f32) :
    sout0_C_0 c i arg3 harg3 arg4 harg4 arg5 harg5 arg6 harg6 arg7 harg7 hc0 hc1 x0 x1 x2 xs0 = k0_pay2 x0 x1 (scaleCols i x2) xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero zeroOffsets]
  simp only [View.readAt_eq_ld, harg3.read_unread, harg4.read_unread, harg5.read_unread, harg7.read_unread,
    View.ld_unit_zero (S := S2048x1024) zeroOffsets, View.ld_unit_zero (S := S1024x1024) zeroOffsets]
  rfl

/-- … and the output block is a copy of it. -/
theorem output_last (c : Dev nD) (i : grid0.Coords) (arg3 : Memref sig .tc .vmem S2048x1024 .f32) (harg3 : arg3.IsWhole) (arg4 : Memref sig .tc .vmem S1024x1024 .i32) (harg4 : arg4.IsWhole) (arg5 : Memref sig .tc .vmem S1024x32 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .f32) (x1 : Vec F S1024x1024 .i32) (x2 : Vec F S1024x32 .f32) (xs0 : Vec F S2048x1024 .f32) :
    out0_C_3 c i arg3 harg3 arg4 harg4 arg5 harg5 arg6 harg6 arg7 harg7 hc0 hc1 x0 x1 x2 xs0 = k0_pay2 x0 x1 (scaleCols i x2) xs0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero zeroOffsets, View.readCov_unit_zero (S := S2048x1024) _ zeroOffsets]
  simp only [View.readAt_eq_ld, harg3.read_unread, harg4.read_unread, harg5.read_unread, harg7.read_unread,
    View.ld_unit_zero (S := S2048x1024) zeroOffsets, View.ld_unit_zero (S := S1024x1024) zeroOffsets]
  rfl

end Cert.KernelIdeal.Found

end
-- ==== Proof.Payload.lean ====
/-
  The body's arithmetic at one element.

  From a 2048×1024 block `a` of the activations, a 1024×1024 block `w` of the integer weights, the eight
  scale columns `s` that go with it (one column per group of 128 consecutive features) and the block
  `acc` the scratch held, the body stores

      acc[p, q] + ∑ k < 1024,  a[p, k] · ( float(w[q, k]) · s[q, k / 128] )

  at (p, q): on the extended reals the two roundings to bf16 are the identity, the matrix product
  into a zero accumulator is the plain sum of products, and the weight block is dequantized by
  viewing its 1024 columns as 8 groups of 128 and multiplying group g by the scale column g.
-/
import proofs.«128871_j21706764714504_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The group (of 128 consecutive features) a feature of the block belongs to … -/
abbrev grp (k : Fin 1024) : Fin 8 := ⟨k.val / 128, by have := k.isLt; omega⟩
/-- … and its place inside the group. -/
abbrev lane (k : Fin 1024) : Fin 128 := ⟨k.val % 128, by omega⟩

/-- The dequantized weight block at (q, k): the integer weight as a real, times its group's scale. -/
theorem dequant_apply (w : Vec Ideal S1024x1024 .i32) (s : Vec Ideal S1024x8 .f32) (q k : Fin 1024) :
    (shapeCast S1024x1024 (mulf (shapeCast S1024x8x128 (sitofp (F := Ideal) .f32 w) shapeCasts_S1024x1024_S1024x8x128)
        (broadcastTo S1024x8x128 (shapeCast S1024x8x1 s shapeCasts_S1024x8_S1024x8x1) broadcasts_S1024x8x1_S1024x8x128))
      shapeCasts_S1024x8x128_S1024x1024 : FVec Ideal S1024x1024 .f32) (ix2 q k)
    = FloatOps.sitofp (F := Ideal) .f32 (w (ix2 q k)) * s (ix2 q (grp k)) := by
  have hq := q.isLt
  have hk := k.isLt
  refine (shapeCast_apply _ shapeCasts_S1024x8x128_S1024x1024 (ix2 q k) (ix3 q (grp k) (lane k)) ?_).trans ?_
  · rw [Shape.rowMajor_val_three, Shape.rowMajor_val_two]
    show (q.val * 8 + k.val / 128) * 128 + k.val % 128 = q.val * 1024 + k.val
    omega
  rw [mulf_apply]
  refine congrArg₂ (· * ·) ?_ ?_
  · refine (shapeCast_apply _ shapeCasts_S1024x1024_S1024x8x128 (ix3 q (grp k) (lane k)) (ix2 q k) ?_).trans (sitofp_apply _ _)
    rw [Shape.rowMajor_val_three, Shape.rowMajor_val_two]
    show q.val * 1024 + k.val = (q.val * 8 + k.val / 128) * 128 + k.val % 128
    omega
  · refine (broadcastTo_apply _ broadcasts_S1024x8x1_S1024x8x128 (ix3 q (grp k) (lane k)) (ix3 q (grp k) (0 : Fin 1)) (fun a => ?_)).trans ?_
    · match a with
      | ⟨0, _⟩ => show q.val = if (1024 : Nat) = 1 then 0 else q.val; rw [if_neg (by decide)]
      | ⟨1, _⟩ => show k.val / 128 = if (8 : Nat) = 1 then 0 else k.val / 128; rw [if_neg (by decide)]
      | ⟨2, _⟩ => show 0 = if (1 : Nat) = 1 then 0 else k.val % 128; rw [if_pos rfl]
    · refine shapeCast_apply _ shapeCasts_S1024x8_S1024x8x1 (ix3 q (grp k) (0 : Fin 1)) (ix2 q (grp k)) ?_
      rw [Shape.rowMajor_val_three, Shape.rowMajor_val_two]
      show q.val * 8 + k.val / 128 = (q.val * 8 + k.val / 128) * 1 + 0
      omega

/-- The matrix product's dimension numbers: contract the second axis of both blocks. -/
abbrev dims := dot_S2048x1024_S1024x1024_S2048x1024_1_1_0_0_n_n

/-- The left operand of the product at output (p, q) and contraction index κ is read at row p … -/
theorem lhs_row (j : S2048x1024.Idx) (κ : dims.contr.Idx) : (dims.lhsIdx j κ 0).val = (j 0).val := by
  unfold DotDims.lhsIdx
  rw [dif_neg (show ¬(0 : Fin S2048x1024.rank) ∈ dims.lhsBatch by decide),
    dif_pos (show (0 : Fin S2048x1024.rank) ∈ dims.lhsNonContracting by decide)]
  rfl
/-- … and column κ; -/
theorem lhs_col (j : S2048x1024.Idx) (κ : dims.contr.Idx) : (dims.lhsIdx j κ 1).val = (κ ⟨0, by decide⟩).val :=
  dims.lhsIdx_val_of_single rfl j κ
/-- the right operand at row q … -/
theorem rhs_row (j : S2048x1024.Idx) (κ : dims.contr.Idx) : (dims.rhsIdx j κ 0).val = (j 1).val := by
  unfold DotDims.rhsIdx
  rw [dif_neg (show ¬(0 : Fin S1024x1024.rank) ∈ dims.rhsBatch by decide),
    dif_pos (show (0 : Fin S1024x1024.rank) ∈ dims.rhsNonContracting by decide)]
  rfl
/-- … and column κ. -/
theorem rhs_col (j : S2048x1024.Idx) (κ : dims.contr.Idx) : (dims.rhsIdx j κ 1).val = (κ ⟨0, by decide⟩).val :=
  dims.rhsIdx_val_of_single rfl j κ

/-- The dot product of row `p` of an activation block with row `q` of the dequantized weight block. -/
def blockDot (a : Vec Ideal S2048x1024 .f32) (w : Vec Ideal S1024x1024 .i32) (s : Vec Ideal S1024x8 .f32)
    (p : Fin 2048) (q : Fin 1024) : EReal :=
  ∑ k : Fin 1024, a (ix2 p k) * (FloatOps.sitofp (F := Ideal) .f32 (w (ix2 q k)) * s (ix2 q (grp k)))

/-- The stored block at (p, q): what the scratch held there plus the dot product. -/
theorem pay2_apply (a : Vec Ideal S2048x1024 .f32) (w : Vec Ideal S1024x1024 .i32) (s : Vec Ideal S1024x8 .f32)
    (acc : Vec Ideal S2048x1024 .f32) (p : Fin 2048) (q : Fin 1024) :
    k0_pay2 (F := Ideal) a w s acc (ix2 p q) = acc (ix2 p q) + blockDot a w s p q := by
  unfold k0_pay2 blockDot
  simp only [shapeCast_self]
  rw [addf_apply]
  refine congrArg (acc (ix2 p q) + ·) ?_
  refine (Ideal.matmul_constant_zero_apply dims none _ _ (ix2 p q)).trans ?_
  rw [← Equiv.sum_comp (contrEquiv1 dims 1024 rfl rfl).symm]
  refine Finset.sum_congr rfl fun k _ => ?_
  have hk := contrEquiv1_symm_val dims 1024 rfl rfl k
  have el : dims.lhsIdx (ix2 p q) ((contrEquiv1 dims 1024 rfl rfl).symm k) = ix2 p k :=
    funext fun b => Fin.ext (by
      match b with
      | ⟨0, _⟩ => exact lhs_row _ _
      | ⟨1, _⟩ => exact (lhs_col _ _).trans hk)
  have er : dims.rhsIdx (ix2 p q) ((contrEquiv1 dims 1024 rfl rfl).symm k) = ix2 q k :=
    funext fun b => Fin.ext (by
      match b with
      | ⟨0, _⟩ => exact rhs_row _ _
      | ⟨1, _⟩ => exact (rhs_col _ _).trans hk)
  rw [el, er, truncf_apply, truncf_apply]
  exact congrArg (a (ix2 p k) * ·) (dequant_apply w s q k)

/-- The block the first step adds into is zero everywhere. -/
theorem pay1_apply (j : S2048x1024.Idx) : k0_pay1 (F := Ideal) j = 0 := by
  unfold k0_pay1
  simp only [shapeCast_self]
  show Ideal.ofBits .f32 0x00000000#32 = 0
  exact Ideal.ofBits_zero_f32

end Cert.KernelIdeal.Payload

end
-- ==== Proof.Blocks.lean ====
/-
  The input blocks at a grid point, read as elements of the argument arrays.

  The 64 grid points are (i₀, i₁, i₂) with point number t = 16·i₀ + 4·i₁ + i₂: i₀ selects 2048
  activation rows, i₁ selects 1024 output features, i₂ selects 1024 input features (8 groups).  So at
  point t the activation block holds rows 2048·(t / 16) + p and features 1024·(t % 4) + k of the
  flattened activations (row r of which is (r / 2048, r % 2048) of the argument), the weight block
  holds rows 1024·(t / 4 % 4) + q and the same features of the weight matrix, and the scale columns
  the body reads are columns 8·(t % 4) + g of those rows.  Feature 1024·(t % 4) + k lies in group
  8·(t % 4) + k / 128, so the dot product the body adds at point t is share t % 4 of the
  contraction at that row and output feature.
-/
import proofs.«128871_j21706764714504_1_alg».proof.Proof.Gen.KernelIdeal.Frame
import proofs.«128871_j21706764714504_1_alg».proof.Proof.Found
import proofs.«128871_j21706764714504_1_alg».proof.Proof.Payload
import proofs.«128871_j21706764714504_1_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Found Cert.KernelIdeal.Payload Cert.DequantLinear

variable (m : (ℓ : Loc nD τ sig) → Buf (Elt Ideal) ℓ) (c : Dev nD)

/-- The three argument arrays as launched. -/
abbrev acts : Acts := m ((c : Thread nD τ).loc main_arg0)
abbrev weights : Weights := m ((c : Thread nD τ).loc main_arg1)
abbrev scales : Scales := m ((c : Thread nD τ).loc main_arg2)

/-- The printed index maps and the scale columns' offset, decided once over the grid. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 4 % 4 ∧ win0_2.index t (1 : Fin 2) = 0
    ∧ win0_3.index t (0 : Fin 2) = t.val / 16 ∧ win0_3.index t (1 : Fin 2) = t.val / 4 % 4
    ∧ k0_off1 (grid0.coords t) (0 : Fin 2) = 0 ∧ k0_off1 (grid0.coords t) (1 : Fin 2) = 8 * (t.val % 4) :=
  (by decide +kernel : ∀ t : Fin grid0.N, _)

/-- The flattened activations the region finds: the argument viewed as 8192 rows. -/
theorem entry_acts : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

/-- The activation block at point `t`, element (p, k). -/
theorem acts_block (t : Fin cfg0.N) (p : Fin 2048) (k : Fin 1024) :
    (iblk m c 0 t : Vec Ideal S2048x1024 .f32) (ix2 p k)
      = acts m c (ix3 (⟨(2048 * (t.val / 16) + p.val) / 2048 % 4, by omega⟩ : Fin 4) (⟨(2048 * (t.val / 16) + p.val) % 2048, by omega⟩ : Fin 2048)
          (⟨(1024 * (t.val % 4) + k.val) % 4096, by omega⟩ : Fin 4096)) := by
  obtain ⟨e0, e1, -⟩ := idx_facts t
  have ht : t.val < 64 := lt_of_lt_of_eq t.isLt N_0
  have hp := p.isLt
  have hk := k.isLt
  show V m c main_v0 (((cfg0.win 0).blk t).view.emb (ix2 p k)) = _
  rw [entry_acts]
  refine shapeCast_apply _ shapeCasts_S4x2048x4096_S8192x4096 _ _ ?_
  rw [Shape.rowMajor_val_three, Shape.rowMajor_val_two]
  show ((2048 * (t.val / 16) + p.val) / 2048 % 4 * 2048 + (2048 * (t.val / 16) + p.val) % 2048) * 4096 + (1024 * (t.val % 4) + k.val) % 4096
    = (win0_0.index t (0 : Fin 2) * 2048 + 1 * p.val) * 4096 + (win0_0.index t (1 : Fin 2) * 1024 + 1 * k.val)
  rw [e0, e1]
  omega

/-- The weight block at point `t`, element (q, k). -/
theorem weight_block (t : Fin cfg0.N) (q k : Fin 1024) :
    (iblk m c 1 t : Vec Ideal S1024x1024 .i32) (ix2 q k)
      = weights m c (ix2 (⟨(1024 * (t.val / 4 % 4) + q.val) % 4096, by omega⟩ : Fin 4096) (⟨(1024 * (t.val % 4) + k.val) % 4096, by omega⟩ : Fin 4096)) := by
  obtain ⟨-, -, e2, e3, -⟩ := idx_facts t
  have ht : t.val < 64 := lt_of_lt_of_eq t.isLt N_0
  have hq := q.isLt
  have hk := k.isLt
  show V m c main_arg1 (((cfg0.win 1).blk t).view.emb (ix2 q k)) = _
  rw [V_main_arg1]
  refine congrArg (m ((c : Thread nD τ).loc main_arg1)) (funext fun a => Fin.ext ?_)
  match a with
  | ⟨0, _⟩ =>
    show win0_1.index t (0 : Fin 2) * 1024 + 1 * q.val = (1024 * (t.val / 4 % 4) + q.val) % 4096
    rw [e2]; omega
  | ⟨1, _⟩ =>
    show win0_1.index t (1 : Fin 2) * 1024 + 1 * k.val = (1024 * (t.val % 4) + k.val) % 4096
    rw [e3]; omega

/-- The scale columns the body reads at point `t`, at row q and the group of feature k. -/
theorem scale_block (t : Fin cfg0.N) (q k : Fin 1024) :
    scaleCols (grid0.coords t) (iblk m c 2 t : Vec Ideal S1024x32 .f32) (ix2 q (grp k))
      = scales m c (ix2 (⟨(1024 * (t.val / 4 % 4) + q.val) % 4096, by omega⟩ : Fin 4096) (⟨(1024 * (t.val % 4) + k.val) % 4096 / 128, by omega⟩ : Fin 32)) := by
  obtain ⟨-, -, -, -, e4, e5, -, -, e8, e9⟩ := idx_facts t
  have ht : t.val < 64 := lt_of_lt_of_eq t.isLt N_0
  have hq := q.isLt
  have hk := k.isLt
  show V m c main_arg2 (((cfg0.win 2).blk t).view.emb
    ((Rect.unit (s := S1024x32) (k0_off1 (grid0.coords t)) S1024x8.size (k0_off1_inb (grid0.coords t))).emb (ix2 q (grp k)))) = _
  rw [V_main_arg2]
  refine congrArg (m ((c : Thread nD τ).loc main_arg2)) (funext fun a => Fin.ext ?_)
  match a with
  | ⟨0, _⟩ =>
    show win0_2.index t (0 : Fin 2) * 1024 + 1 * (k0_off1 (grid0.coords t) (0 : Fin 2) + 1 * q.val) = (1024 * (t.val / 4 % 4) + q.val) % 4096
    rw [e4, e8]; omega
  | ⟨1, _⟩ =>
    show win0_2.index t (1 : Fin 2) * 32 + 1 * (k0_off1 (grid0.coords t) (1 : Fin 2) + 1 * (k.val / 128)) = (1024 * (t.val % 4) + k.val) % 4096 / 128
    rw [e5, e9]; omega

/-- The dot product the body adds at point `t` is one share of the contraction. -/
theorem blockDot_eq_share (t : Fin cfg0.N) (p : Fin 2048) (q : Fin 1024) :
    blockDot (iblk m c 0 t) (iblk m c 1 t) (scaleCols (grid0.coords t) (iblk m c 2 t)) p q
      = share (acts m c) (weights m c) (scales m c) (2048 * (t.val / 16) + p.val) (1024 * (t.val / 4 % 4) + q.val) (t.val % 4) := by
  unfold blockDot share prod
  refine Finset.sum_congr rfl fun k _ => ?_
  rw [acts_block m c t p k, weight_block m c t q k, scale_block m c t q k]

end Cert.KernelIdeal.Blocks

end
-- ==== Proof.Accum.lean ====
/-
  What the scratch holds after each grid point.

  Along the contraction axis (the last grid coordinate, t % 4 of point number t) the scratch is reset at
  step 0 and added into at steps 1, 2, 3; the other two coordinates do not change meanwhile.  So after
  point t the scratch holds, at (p, q), the sum of shares 0 … t % 4 of the contraction at activation row
  2048·(t / 16) + p and output feature 1024·(t / 4 % 4) + q — by induction on the point number, using
  only that zero is neutral for the first step.  At the last step the output block is a copy of the
  scratch.
-/
import proofs.«128871_j21706764714504_1_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Found Cert.KernelIdeal.Payload Cert.KernelIdeal.Blocks Cert.DequantLinear

variable (m : (ℓ : Loc nD τ sig) → Buf (Elt Ideal) ℓ) (c : Dev nD)

/-- A point at step 0 of the contraction axis leaves its own share in the scratch. -/
theorem scratch_reset (t : Fin cfg0.N) (h0 : t.val % 4 = 0) (p : Fin 2048) (q : Fin 1024) :
    (outsAt0 m c t.val t.isLt).2 (ix2 p q) = share (acts m c) (weights m c) (scales m c) (2048 * (t.val / 16) + p.val) (1024 * (t.val / 4 % 4) + q.val) (t.val % 4) := by
  have h1 : ¬t.val % 4 = 3 := by omega
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
  refine (pay2_apply (iblk m c 0 t) (iblk m c 1 t) (scaleCols (grid0.coords t) (iblk m c 2 t)) (k0_pay1 (F := Ideal)) p q).trans ?_
  rw [pay1_apply, zero_add]
  exact blockDot_eq_share m c t p q

/-- A point at a later step adds its share to what the point before left. -/
theorem scratch_step (t : Fin cfg0.N) (h0 : ¬t.val % 4 = 0) (p : Fin 2048) (q : Fin 1024) :
    (outsAt0 m c t.val t.isLt).2 (ix2 p q)
      = (outsAt0 m c (t.val - 1) (Nat.lt_of_le_of_lt (Nat.sub_le _ _) t.isLt)).2 (ix2 p q) + share (acts m c) (weights m c) (scales m c) (2048 * (t.val / 16) + p.val) (1024 * (t.val / 4 % 4) + q.val) (t.val % 4) := by
  by_cases h1 : t.val % 4 = 3
  · rw [outsAt0_C m c t h0 h1]
    dsimp only
    refine (congrFun (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
    refine (pay2_apply (iblk m c 0 t) (iblk m c 1 t) (scaleCols (grid0.coords t) (iblk m c 2 t)) (outsAt0 m c (t.val - 1) (Nat.lt_of_le_of_lt (Nat.sub_le _ _) t.isLt)).2 p q).trans ?_
    exact congrArg ((outsAt0 m c (t.val - 1) (Nat.lt_of_le_of_lt (Nat.sub_le _ _) t.isLt)).2 (ix2 p q) + ·) (blockDot_eq_share m c t p q)
  · rw [outsAt0_B m c t h0 h1]
    dsimp only
    refine (congrFun (scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 p q)).trans ?_
    refine (pay2_apply (iblk m c 0 t) (iblk m c 1 t) (scaleCols (grid0.coords t) (iblk m c 2 t)) (outsAt0 m c (t.val - 1) (Nat.lt_of_le_of_lt (Nat.sub_le _ _) t.isLt)).2 p q).trans ?_
    exact congrArg ((outsAt0 m c (t.val - 1) (Nat.lt_of_le_of_lt (Nat.sub_le _ _) t.isLt)).2 (ix2 p q) + ·) (blockDot_eq_share m c t p q)

/-- At the last step the output block is a copy of the scratch. -/
theorem output_copy (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (output_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm

/-- After point `n` the scratch holds the sum of the shares of steps 0 … n % 4. -/
theorem scratch_sum : ∀ (n : ℕ) (h : n < cfg0.N) (p : Fin 2048) (q : Fin 1024),
    (outsAt0 m c n h).2 (ix2 p q)
      = ∑ s ∈ Finset.range (n % 4 + 1), share (acts m c) (weights m c) (scales m c) (2048 * (n / 16) + p.val) (1024 * (n / 4 % 4) + q.val) s
  | 0, h, p, q => by
    refine (scratch_reset m c ⟨0, h⟩ rfl p q).trans ?_
    exact (Finset.sum_range_one _).symm
  | n + 1, h, p, q => by
    have hN : n + 1 < 64 := lt_of_lt_of_eq h N_0
    by_cases h0 : (n + 1) % 4 = 0
    · refine (scratch_reset m c ⟨n + 1, h⟩ h0 p q).trans ?_
      show share (acts m c) (weights m c) (scales m c) (2048 * ((n + 1) / 16) + p.val) (1024 * ((n + 1) / 4 % 4) + q.val) ((n + 1) % 4) = _
      rw [h0]
      exact (Finset.sum_range_one _).symm
    · have e1 : n / 16 = (n + 1) / 16 := by omega
      have e2 : n / 4 % 4 = (n + 1) / 4 % 4 := by omega
      have e3 : (n + 1) % 4 = n % 4 + 1 := by omega
      refine (scratch_step m c ⟨n + 1, h⟩ h0 p q).trans ?_
      show (outsAt0 m c n (Nat.lt_of_succ_lt h)).2 (ix2 p q)
          + share (acts m c) (weights m c) (scales m c) (2048 * ((n + 1) / 16) + p.val) (1024 * ((n + 1) / 4 % 4) + q.val) ((n + 1) % 4) = _
      rw [scratch_sum n (Nat.lt_of_succ_lt h) p q, e1, e2, e3]
      exact (Finset.sum_range_succ _ _).symm

end Cert.KernelIdeal.Accum

end
-- ==== Proof.Final.lean ====
/-
  The result array.

  The output block is written back at the last step of the contraction axis only, where it holds the
  sum of all four shares; the block of point t sits at rows 2048·(t / 16) … and columns
  1024·(t / 4 % 4) … of the 8192×4096 result, and every (r, o) lies in the block of the point
  16·(r / 2048) + 4·(o / 1024) + 3.  So after the run the 8192×4096 result holds, at (r, o), the sum of
  the four shares of the contraction at row r and output feature o — which is the whole contraction.
  The program's last line views it as 4×2048×4096: element (b, t, o) is row 2048·b + t.
-/
import proofs.«128871_j21706764714504_1_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Accum Cert.DequantLinear

variable (m : (ℓ : Loc nD τ sig) → Buf (Elt Ideal) ℓ) (ρ : Dev nD → PrngReg) (c : Dev nD)

/-- The 8192×4096 result: at (r, o) the four shares of the contraction, added up. -/
def flat : S8192x4096.Idx → EReal := fun i =>
  ∑ s ∈ Finset.range 4, share (acts m c) (weights m c) (scales m c) (i 0).val (i 1).val s

/-- What a flushing point writes back is its block of `flat`. -/
theorem flushed_eq (t : Fin cfg0.N) (hf : (cfg0.win 3).flush t = true) :
    (dats m 0 c).flushed 3 t = ((cfg0.win 3).blk t).view.read (Elt Ideal) (flat m c) := by
  have h3 : t.val % 4 = 3 := (flush0_3 t).mp hf
  obtain ⟨-, -, -, -, -, -, e6, e7, -⟩ := idx_facts t
  have ht : t.val < 64 := lt_of_lt_of_eq t.isLt N_0
  show (cfg0.win 3).cut (grid0.coords t) ((dats m 0 c).after 3 t) = _
  rw [after0_3, output_copy m c t h3]
  refine funext fun (j : S2048x1024.Idx) => ?_
  obtain ⟨p, q, rfl⟩ : ∃ (p : Fin 2048) (q : Fin 1024), j = ix2 p q := ⟨j 0, j 1, eq_ix2 j⟩
  have hp := p.isLt
  have hq := q.isLt
  show (outsAt0 m c t.val t.isLt).2 (ix2 p q) = flat m c (((cfg0.win 3).blk t).view.emb (ix2 p q))
  rw [scratch_sum m c t.val t.isLt p q, h3]
  have r0 : ((((cfg0.win 3).blk t).view.emb (ix2 p q)) 0).val = (2048 * (t.val / 16) + p.val) := by
    show win0_3.index t (0 : Fin 2) * 2048 + 1 * p.val = _
    rw [e6]; omega
  have r1 : ((((cfg0.win 3).blk t).view.emb (ix2 p q)) 1).val = (1024 * (t.val / 4 % 4) + q.val) := by
    show win0_3.index t (1 : Fin 2) * 1024 + 1 * q.val = _
    rw [e7]; omega
  unfold flat
  rw [r0, r1]

/-- An index of the result is in point `t`'s block iff each coordinate is in the block's range on its axis. -/
theorem mem_blk (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v1).slice (win0_3.rect t)).set ↔ _
  rw [View.set_slice_whole, Rect.mem_set_unit]
  exact Iff.rfl

/-- Every index of the result is in the block of a flushing point. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, hv⟩ : ∃ t : Fin cfg0.N, t.val = 16 * ((i 0).val / 2048) + 4 * ((i 1).val / 1024) + 3 :=
    ⟨⟨16 * ((i 0).val / 2048) + 4 * ((i 1).val / 1024) + 3, lt_of_lt_of_eq (by omega) N_0.symm⟩, rfl⟩
  obtain ⟨-, -, -, -, -, -, e6, e7, -⟩ := idx_facts t
  refine ⟨t, (flush0_3 t).mpr (by omega), ?_⟩
  rw [mem_blk]
  intro a
  match a with
  | ⟨0, _⟩ =>
    show win0_3.index t (0 : Fin 2) * 2048 ≤ (i 0).val ∧ (i 0).val < win0_3.index t (0 : Fin 2) * 2048 + 2048
    rw [e6]; omega
  | ⟨1, _⟩ =>
    show win0_3.index t (1 : Fin 2) * 1024 ≤ (i 1).val ∧ (i 1).val < win0_3.index t (1 : Fin 2) * 1024 + 1024
    rw [e7]; omega

/-- So the 8192×4096 result ends holding `flat`. -/
theorem final : (dats m 0 c).arrAt 3 cfg0.N = flat m c :=
  (dats m 0 c).arrAt_eq_of_cover 3 (flat m c) (fun t hf => flushed_eq m c t hf) (cover)

/-- The program's result: the 8192×4096 result viewed as 4×2048×4096 is the specification. -/
theorem result_eq :
    Pipeline.afterTail₀ cfgs (dats m) 0 (V0 m) [hostOps1] c main_v2 = linear (acts m c) (weights m c) (scales m c) := by
  unfold Pipeline.afterTail₀
  show StableHlo.after hostOps1 _ (Proc.devRef .tc main_v2) = _
  after_results
  have hw : Pipeline.withArrays spec0 c (V0 m c) (fun w => (dats m 0 c).arrAt w cfg0.N) (Proc.devRef .tc main_v1) = flat m c :=
    (Pipeline.withArrays_arr spec0 launch0.win.arr_inj c _ _ 3).trans (final m c)
  show shapeCast S4x2048x4096 (Pipeline.withArrays spec0 c (V0 m c) (fun w => (dats m 0 c).arrAt w cfg0.N) (Proc.devRef .tc main_v1))
    shapeCasts_S8192x4096_S4x2048x4096 = _
  rw [hw]
  funext j
  have hj0 : (j 0).val < 4 := (j 0).isLt
  have hj1 : (j 1).val < 2048 := (j 1).isLt
  have hj2 : (j 2).val < 4096 := (j 2).isLt
  refine (shapeCast_apply (flat m c) shapeCasts_S8192x4096_S4x2048x4096 j
    (ix2 (⟨2048 * (j 0).val + (j 1).val, by omega⟩ : Fin 8192) (⟨(j 2).val, hj2⟩ : Fin 4096)) ?_).trans ?_
  · rw [Shape.rowMajor_val_two, Shape.rowMajor_val_three]
    show (2048 * (j 0).val + (j 1).val) * 4096 + (j 2).val = ((j 0).val * 2048 + (j 1).val) * 4096 + (j 2).val
    omega
  · show (∑ s ∈ Finset.range 4, share (acts m c) (weights m c) (scales m c) (2048 * (j 0).val + (j 1).val) (j 2).val s)
      = whole (acts m c) (weights m c) (scales m c) (2048 * (j 0).val + (j 1).val) (j 2).val
    exact (whole_eq_shares _ _ _ _ _).symm

/-- The run, read: every weakly fair execution ends with the result at the specification of the argument
    arrays as launched, and the arguments unchanged. -/
theorem run : θ_run defs (onTc (τ := τ) (main (F := Ideal))) ⟨m, fun _ => 0, ρ⟩ fun r => ∀ c : Dev nD,
      r.2.mem ((c.tc : Thread nD τ).loc main_v2) = linear (acts m c) (weights m c) (scales m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Final

end
-- ==== Proof.lean ====
/-
  The kernel multiplies 8192 rows of activations by a 4096×4096 matrix of integer weights that are
  rescaled on the fly, one scale per output feature and group of 128 input features.  It walks a
  4×4×4 grid: 2048 rows by 1024 output features by 1024 input features per point, keeping the partial
  products of the current row and column block in a scratch buffer that is zeroed at the first step of
  the innermost (input-feature) axis and written out at the last.  The reference dequantizes the whole
  weight matrix and takes one einsum.

  Over the extended reals both compute, at (b, t, o),

      ∑ i < 4096,  x[b, t, i] · ( float(w[o, i]) · scale[o, i / 128] ):

  the roundings to bf16 are the identity there, a matrix product into zero is the plain sum of
  products, and the kernel's four consecutive partial sums, added to zero one after the other, are the
  whole sum because addition is associative with neutral element zero.  Nothing in the argument needs
  the inputs to be finite.

  Spec        the function and the four-shares law
  RefValue    the reference's term is the function
  Payload     the body's arithmetic at one element
  Found       what each case of the body leaves in the scratch and the output
  Blocks      the input blocks at a grid point as elements of the argument arrays
  Accum       the scratch after each point, by induction on the point number
  Final       the result array and the program's run
-/
import proofs.«128871_j21706764714504_1_alg».proof.Defs
import proofs.«128871_j21706764714504_1_alg».proof.Proof.Gen.Kernel
import proofs.«128871_j21706764714504_1_alg».proof.Proof.Gen.Kernel.Frame
import proofs.«128871_j21706764714504_1_alg».proof.Proof.Gen.KernelIdeal
import proofs.«128871_j21706764714504_1_alg».proof.Proof.Gen.KernelIdeal.Frame
import proofs.«128871_j21706764714504_1_alg».proof.Proof.Gen.ReferenceIdeal
import proofs.«128871_j21706764714504_1_alg».proof.Proof.Gen.ReferenceIdeal.Run
import proofs.«128871_j21706764714504_1_alg».proof.Proof.Gen.ReferenceIdeal.Read
import proofs.«128871_j21706764714504_1_alg».proof.Proof.Gen.Pre_finite_inputs
import proofs.«128871_j21706764714504_1_alg».proof.Proof.RefValue
import proofs.«128871_j21706764714504_1_alg».proof.Proof.Final
import Idealize.ShloMosaic.Adequacy
import Idealize.ShloMosaic.Init

noncomputable section

namespace Cert.Proof

open Idealize.ShloMosaic Idealize.SL.Sem

/-- The printed kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the contraction of the arguments they agree on. -/
theorem algebraic : Cert.algebraic_KernelIdeal_ReferenceIdeal := by
  intro m ρ m' ρ' _ hagree
  refine ⟨fun c => Cert.DequantLinear.linear (Cert.KernelIdeal.Blocks.acts m c) (Cert.KernelIdeal.Blocks.weights m c)
    (Cert.KernelIdeal.Blocks.scales m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
